-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S768x3072 : S_.BroadcastsInDim S768x3072 (![] : Fin 0 → Fin S768x3072.rank)
  reducesTo_S768x3072_S_d0_1 : S768x3072.ReducesTo [0, 1] S_

variable [Facts]

def fn_part1 {F : FTy → Type} [FloatOps F] (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  main_v18

def fn {F : FTy → Type} [FloatOps F] (main_arg0 : FVec F S8x4096x768 .f32) (main_arg1 : FVec F S8 .f32) (main_arg2 : FVec F S3072x8 .f32) (main_arg3 : FVec F S768x3072 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_v13 main_v16
-- ==== Kernel.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S32768x768 : Shape := ⟨2, ![32768, 768]⟩
abbrev S1x8 : Shape := ⟨2, ![1, 8]⟩
abbrev S8x3072 : Shape := ⟨2, ![8, 3072]⟩
abbrev S3072x768 : Shape := ⟨2, ![3072, 768]⟩
abbrev S1024x768 : Shape := ⟨2, ![1024, 768]⟩
abbrev S1024x8 : Shape := ⟨2, ![1024, 8]⟩
abbrev S1024x3072 : Shape := ⟨2, ![1024, 3072]⟩

abbrev nBuf : Space → Nat
  | .hbm => 13
  | .vmem => 7
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S768x3072, .f32⟩
  | .hbm, ⟨4, _⟩ => ⟨S32768x768, .f32⟩
  | .hbm, ⟨5, _⟩ => ⟨S8, .f32⟩
  | .hbm, ⟨6, _⟩ => ⟨S1x8, .f32⟩
  | .hbm, ⟨7, _⟩ => ⟨S8x3072, .f32⟩
  | .hbm, ⟨8, _⟩ => ⟨S8x3072, .bf16⟩
  | .hbm, ⟨9, _⟩ => ⟨S3072x768, .f32⟩
  | .hbm, ⟨10, _⟩ => ⟨S3072x768, .bf16⟩
  | .hbm, ⟨11, _⟩ => ⟨S32768x768, .f32⟩
  | .hbm, ⟨12, _⟩ => ⟨S8x4096x768, .f32⟩
  | .local _ .vmem, ⟨0, _⟩ => ⟨S1024x768, .f32⟩
  | .local _ .vmem, ⟨1, _⟩ => ⟨S1024x768, .f32⟩
  | .local _ .vmem, ⟨2, _⟩ => ⟨S1x8, .f32⟩
  | .local _ .vmem, ⟨3, _⟩ => ⟨S8x3072, .bf16⟩
  | .local _ .vmem, ⟨4, _⟩ => ⟨S3072x768, .bf16⟩
  | .local _ .vmem, ⟨5, _⟩ => ⟨S1024x768, .f32⟩
  | .local _ .vmem, ⟨6, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x768_S32768x768 : S8x4096x768.ShapeCasts S32768x768
  shapeCasts_S8_S1x8 : S8.ShapeCasts S1x8
  transposes_S3072x8_S8x3072_1_0 : S3072x8.Transposes [1, 0] S8x3072
  bitsLt_bf16_f32 : FTy.bits .bf16 < FTy.bits .f32
  transposes_S768x3072_S3072x768_1_0 : S768x3072.Transposes [1, 0] S3072x768
  inb_S1024x768_S1024x8_0_0 : ∀ a, (![0, 0] : Fin 2 → Nat) a + S1024x8.size a ≤ S1024x768.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1024x768_S1024x768_0_0 : ∀ a, (![0, 0] : Fin 2 → Nat) a + S1024x768.size a ≤ S1024x768.size a
  h_S1024x768 : 0 < S1024x768.numel
  shapeCasts_S32768x768_S8x4096x768 : S32768x768.ShapeCasts S8x4096x768
  dot_S1024x8_S8x3072_S1024x3072_1_0_0_1_n_n_wf : DotDims.WF S1024x8 S8x3072 S1024x3072 [1] [0] [0] [1] [] []
  dot_S1024x3072_S3072x768_S1024x768_1_0_0_1_n_n_wf : DotDims.WF S1024x3072 S3072x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3072.size a ≤ S8x3072.size a
  hwx0_2 : ∀ i : grid0.Coords, EltTy.bits .bf16 = 32 ∨ (Rect.block (s := S8x3072) S8x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S32768x768.size a
  hwx0_4 : ∀ i : grid0.Coords, EltTy.bits .f32 = 32 ∨ (Rect.block (s := S32768x768) S1024x768.size (cc0_transform_4 i) (hinb0_4 i)).WholeWords (EltTy.packing .f32)

variable [Facts₀]

def dot_S1024x8_S8x3072_S1024x3072_1_0_0_1_n_n : DotDims S1024x8 S8x3072 S1024x3072 where
  lhsContracting := [1]
  rhsContracting := [0]
  lhsNonContracting := [0]
  rhsNonContracting := [1]
  lhsBatch := []
  rhsBatch := []
  wf := dot_S1024x8_S8x3072_S1024x3072_1_0_0_1_n_n_wf
def dot_S1024x3072_S3072x768_S1024x768_1_0_0_1_n_n : DotDims S1024x3072 S3072x768 S1024x768 where
  lhsContracting := [1]
  rhsContracting := [0]
  lhsNonContracting := [0]
  rhsNonContracting := [1]
  lhsBatch := []
  rhsBatch := []
  wf := dot_S1024x3072_S3072x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S8x4096x8 : Shape := ⟨3, ![8, 4096, 8]⟩
abbrev S1x1x8 : Shape := ⟨3, ![1, 1, 8]⟩
abbrev S8x4096x3072 : Shape := ⟨3, ![8, 4096, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S768x3072, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x3072, .f32⟩
  | .hbm, ⟨11, _⟩ => ⟨S_, .f32⟩
  | .hbm, ⟨12, _⟩ => ⟨S8x4096x3072, .f32⟩
  | .hbm, ⟨13, _⟩ => ⟨S8x4096x3072, .f32⟩
  | .hbm, ⟨14, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x768_S8x4096x8_0_0_0 : S8x4096x768.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x3072 : S_.BroadcastsInDim S8x4096x3072 (![] : Fin 0 → Fin S8x4096x3072.rank)
  dot_S8x4096x8_S3072x8_S8x4096x3072_2_1_01_0_n_n_wf : DotDims.WF S8x4096x8 S3072x8 S8x4096x3072 [2] [1] [0, 1] [0] [] []
  dot_S8x4096x3072_S768x3072_S8x4096x768_2_1_01_0_n_n_wf : DotDims.WF S8x4096x3072 S768x3072 S8x4096x768 [2] [1] [0, 1] [0] [] []

variable [Facts₀]

def dot_S8x4096x8_S3072x8_S8x4096x3072_2_1_01_0_n_n : DotDims S8x4096x8 S3072x8 S8x4096x3072 where
  lhsContracting := [2]
  rhsContracting := [1]
  lhsNonContracting := [0, 1]
  rhsNonContracting := [0]
  lhsBatch := []
  rhsBatch := []
  wf := dot_S8x4096x8_S3072x8_S8x4096x3072_2_1_01_0_n_n_wf
def dot_S8x4096x3072_S768x3072_S8x4096x768_2_1_01_0_n_n : DotDims S8x4096x3072 S768x3072 S8x4096x768 where
  lhsContracting := [2]
  rhsContracting := [1]
  lhsNonContracting := [0, 1]
  rhsNonContracting := [0]
  lhsBatch := []
  rhsBatch := []
  wf := dot_S8x4096x3072_S768x3072_S8x4096x768_2_1_01_0_n_n_wf

class Facts : Prop extends Facts₀ where

variable [Facts]
-- ==== Proof.FfnSpec.lean ====
/-
  The specification both programs are compared with.

  A token has 768 features, of which only the first 8 enter the computation. For one token and one output
  feature the result is
      Σ_f max(Σ_q cos(x_q) · c_q · w1[f, q], 0) · w2[f]
  where `x` are the token's first 8 features, `c` the cosines of the 8 angles, `w1` the first weight matrix
  (3072 × 8) and `w2` the row of the second weight matrix (768 × 3072) belonging to the output feature. All
  arithmetic is that of the extended reals; the zero is the value of the all-zero single-precision word.
  `tokenOut` is that number as a function of the four slices, so that each side of the comparison only has
  to say which slices it reads; `ffn` is the whole result array, index by index, as a function of the four
  argument arrays.
-/
import Idealize.ShloMosaic.PureOps.Ideal
import Idealize.ShloMosaic.Lib.ValueIdx

noncomputable section

open scoped BigOperators

namespace Cert.Ffn

open Idealize.ShloMosaic Idealize.ShloMosaic.ValueIdx

/-- One token's output feature from its 8 gate inputs `x`, the 8 angle cosines `c`, the first weight
    matrix `w1` and the output feature's row `w2` of the second: the gate values `cos x_q · c_q` are mapped to
    3072 hidden values, each cut off below at zero, and those are combined with `w2`. -/
def tokenOut (x c : Fin 8 → EReal) (w1 : Fin 3072 → Fin 8 → EReal) (w2 : Fin 3072 → EReal) : EReal :=
  ∑ f : Fin 3072, max (∑ q : Fin 8, Ideal.cos (x q) * c q * w1 f q) (Ideal.ofBits .f32 0x00000000#32) * w2 f

/-- Gate coordinate `q` as a feature column: the gate inputs are the first 8 of the 768 features. -/
def gateCol (q : Fin 8) : Fin 768 := ⟨q.val, by omega⟩

@[simp] theorem gateCol_val (q : Fin 8) : (gateCol q).val = q.val := rfl

/-- The result array (batch 8 × sequence 4096 × 768 features) as a function of the inputs `X`, the angles
    `θ` and the two weight matrices: entry (b, s, e) is `tokenOut` of token (b, s)'s first 8 features, the
    cosines of the angles, `W1`, and row `e` of `W2`. -/
def ffn (X : (⟨3, ![8, 4096, 768]⟩ : Shape).Idx → EReal) (θ : (⟨1, ![8]⟩ : Shape).Idx → EReal)
    (W1 : (⟨2, ![3072, 8]⟩ : Shape).Idx → EReal) (W2 : (⟨2, ![768, 3072]⟩ : Shape).Idx → EReal) :
    (⟨3, ![8, 4096, 768]⟩ : Shape).Idx → EReal :=
  fun i => tokenOut (fun q => X (ix3 (i 0) (i 1) (gateCol q))) (fun q => Ideal.cos (θ (ix1 q)))
    (fun f q => W1 (ix2 f q)) (fun f => W2 (ix2 (i 2) f))

/-- The result at (b, s, e), with the coordinates written out. -/
theorem ffn_ix3 (X : (⟨3, ![8, 4096, 768]⟩ : Shape).Idx → EReal) (θ : (⟨1, ![8]⟩ : Shape).Idx → EReal)
    (W1 : (⟨2, ![3072, 8]⟩ : Shape).Idx → EReal) (W2 : (⟨2, ![768, 3072]⟩ : Shape).Idx → EReal)
    (b : Fin 8) (s : Fin 4096) (e : Fin 768) :
    ffn X θ W1 W2 (ix3 b s e)
      = tokenOut (fun q => X (ix3 b s (gateCol q))) (fun q => Ideal.cos (θ (ix1 q))) (fun f q => W1 (ix2 f q))
          (fun f => W2 (ix2 e f)) := rfl

end Cert.Ffn

end
-- ==== Proof.BlockValue.lean ====
/-
  What the kernel body writes into its output block, read at one entry.

  The body loads a block of 1024 token rows (only its first 8 feature columns are used), the row vector of
  the 8 cosines of the angles, and the two transposed weight matrices, and stores
      out[r, e] = Σ_f max(Σ_q (cos x[r, q] · c[q]) · w1[q, f], 0) · w2[f, e].
  On the extended reals the two changes of float format are the identity, each product of matrices into a
  zero accumulator is the plain sum over the contracted coordinate, and the maximum with the zero splat is
  the maximum with the constant. This module reads each product at an entry and then the whole stored value,
  which is the specification's `tokenOut` of the loaded slices.
-/
import proofs.«113259_j65481071403168_2_alg».proof.Proof.Gen.KernelIdeal.Skeleton
import proofs.«113259_j65481071403168_2_alg».proof.Proof.FfnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ffn

open Idealize.ShloMosaic Idealize.ShloMosaic.ValueIdx Cert.KernelIdeal Cert.KernelIdeal.Gen

/-! ## The first product: gate rows (1024 × 8) times the first weight matrix (8 × 3072) -/

/-- Row coordinate of the left operand of the first product: the output row. -/
theorem gateDot_l0 (j : S1024x3072.Idx) (q : dot_S1024x8_S8x3072_S1024x3072_1_0_0_1_n_n.contr.Idx) : (dot_S1024x8_S8x3072_S1024x3072_1_0_0_1_n_n.lhsIdx j q 0).val = (j 0).val := by
  unfold DotDims.lhsIdx
  rw [dif_neg (show ¬(0 : Fin S1024x8.rank) ∈ dot_S1024x8_S8x3072_S1024x3072_1_0_0_1_n_n.lhsBatch by decide),
    dif_pos (show (0 : Fin S1024x8.rank) ∈ dot_S1024x8_S8x3072_S1024x3072_1_0_0_1_n_n.lhsNonContracting by decide)]
  rfl
/-- Column coordinate of the left operand of the first product: the contracted coordinate. -/
theorem gateDot_l1 (j : S1024x3072.Idx) (q : dot_S1024x8_S8x3072_S1024x3072_1_0_0_1_n_n.contr.Idx) : (dot_S1024x8_S8x3072_S1024x3072_1_0_0_1_n_n.lhsIdx j q 1).val = (q ⟨0, by decide⟩).val :=
  dot_S1024x8_S8x3072_S1024x3072_1_0_0_1_n_n.lhsIdx_val_of_single rfl j q
/-- Row coordinate of the right operand of the first product: the contracted coordinate. -/
theorem gateDot_r0 (j : S1024x3072.Idx) (q : dot_S1024x8_S8x3072_S1024x3072_1_0_0_1_n_n.contr.Idx) : (dot_S1024x8_S8x3072_S1024x3072_1_0_0_1_n_n.rhsIdx j q 0).val = (q ⟨0, by decide⟩).val :=
  dot_S1024x8_S8x3072_S1024x3072_1_0_0_1_n_n.rhsIdx_val_of_single rfl j q
/-- Column coordinate of the right operand of the first product: the output column. -/
theorem gateDot_r1 (j : S1024x3072.Idx) (q : dot_S1024x8_S8x3072_S1024x3072_1_0_0_1_n_n.contr.Idx) : (dot_S1024x8_S8x3072_S1024x3072_1_0_0_1_n_n.rhsIdx j q 1).val = (j 1).val := by
  unfold DotDims.rhsIdx
  rw [dif_neg (show ¬(1 : Fin S8x3072.rank) ∈ dot_S1024x8_S8x3072_S1024x3072_1_0_0_1_n_n.rhsBatch by decide),
    dif_pos (show (1 : Fin S8x3072.rank) ∈ dot_S1024x8_S8x3072_S1024x3072_1_0_0_1_n_n.rhsNonContracting by decide)]
  rfl

/-- The first product into a zero accumulator, at entry (r, f): the sum over the 8 gate coordinates. -/
theorem gateDot_apply (l : FVec Ideal S1024x8 .bf16) (w : FVec Ideal S8x3072 .bf16) (r : Fin 1024) (n : Fin 3072) :
    matmul dot_S1024x8_S8x3072_S1024x3072_1_0_0_1_n_n none l w (constant S1024x3072 .f32 0x00000000#32) (ix2 r n)
      = ∑ q : Fin 8, l (ix2 r q) * w (ix2 q n) := by
  refine (Ideal.matmul_constant_zero_apply dot_S1024x8_S8x3072_S1024x3072_1_0_0_1_n_n none l w (ix2 r n)).trans ?_
  rw [← Equiv.sum_comp (contrEquiv1 dot_S1024x8_S8x3072_S1024x3072_1_0_0_1_n_n 8 rfl rfl).symm]
  refine Finset.sum_congr rfl fun q _ => ?_
  have hk := contrEquiv1_symm_val dot_S1024x8_S8x3072_S1024x3072_1_0_0_1_n_n 8 rfl rfl q
  have el : dot_S1024x8_S8x3072_S1024x3072_1_0_0_1_n_n.lhsIdx (ix2 r n) ((contrEquiv1 dot_S1024x8_S8x3072_S1024x3072_1_0_0_1_n_n 8 rfl rfl).symm q) = ix2 r q :=
    funext fun a => Fin.ext (by
      match a with
      | ⟨0, _⟩ => exact gateDot_l0 _ _
      | ⟨1, _⟩ => exact (gateDot_l1 _ _).trans hk)
  have er : dot_S1024x8_S8x3072_S1024x3072_1_0_0_1_n_n.rhsIdx (ix2 r n) ((contrEquiv1 dot_S1024x8_S8x3072_S1024x3072_1_0_0_1_n_n 8 rfl rfl).symm q) = ix2 q n :=
    funext fun a => Fin.ext (by
      match a with
      | ⟨0, _⟩ => exact (gateDot_r0 _ _).trans hk
      | ⟨1, _⟩ => exact gateDot_r1 _ _)
  rw [el, er]

/-! ## The second product: hidden rows (1024 × 3072) times the second weight matrix (3072 × 768) -/

/-- Row coordinate of the left operand of the second product: the output row. -/
theorem outDot_l0 (j : S1024x768.Idx) (q : dot_S1024x3072_S3072x768_S1024x768_1_0_0_1_n_n.contr.Idx) : (dot_S1024x3072_S3072x768_S1024x768_1_0_0_1_n_n.lhsIdx j q 0).val = (j 0).val := by
  unfold DotDims.lhsIdx
  rw [dif_neg (show ¬(0 : Fin S1024x3072.rank) ∈ dot_S1024x3072_S3072x768_S1024x768_1_0_0_1_n_n.lhsBatch by decide),
    dif_pos (show (0 : Fin S1024x3072.rank) ∈ dot_S1024x3072_S3072x768_S1024x768_1_0_0_1_n_n.lhsNonContracting by decide)]
  rfl
/-- Column coordinate of the left operand of the second product: the contracted coordinate. -/
theorem outDot_l1 (j : S1024x768.Idx) (q : dot_S1024x3072_S3072x768_S1024x768_1_0_0_1_n_n.contr.Idx) : (dot_S1024x3072_S3072x768_S1024x768_1_0_0_1_n_n.lhsIdx j q 1).val = (q ⟨0, by decide⟩).val :=
  dot_S1024x3072_S3072x768_S1024x768_1_0_0_1_n_n.lhsIdx_val_of_single rfl j q
/-- Row coordinate of the right operand of the second product: the contracted coordinate. -/
theorem outDot_r0 (j : S1024x768.Idx) (q : dot_S1024x3072_S3072x768_S1024x768_1_0_0_1_n_n.contr.Idx) : (dot_S1024x3072_S3072x768_S1024x768_1_0_0_1_n_n.rhsIdx j q 0).val = (q ⟨0, by decide⟩).val :=
  dot_S1024x3072_S3072x768_S1024x768_1_0_0_1_n_n.rhsIdx_val_of_single rfl j q
/-- Column coordinate of the right operand of the second product: the output column. -/
theorem outDot_r1 (j : S1024x768.Idx) (q : dot_S1024x3072_S3072x768_S1024x768_1_0_0_1_n_n.contr.Idx) : (dot_S1024x3072_S3072x768_S1024x768_1_0_0_1_n_n.rhsIdx j q 1).val = (j 1).val := by
  unfold DotDims.rhsIdx
  rw [dif_neg (show ¬(1 : Fin S3072x768.rank) ∈ dot_S1024x3072_S3072x768_S1024x768_1_0_0_1_n_n.rhsBatch by decide),
    dif_pos (show (1 : Fin S3072x768.rank) ∈ dot_S1024x3072_S3072x768_S1024x768_1_0_0_1_n_n.rhsNonContracting by decide)]
  rfl

/-- The second product into a zero accumulator, at entry (r, e): the sum over the 3072 hidden coordinates. -/
theorem outDot_apply (l : FVec Ideal S1024x3072 .bf16) (w : FVec Ideal S3072x768 .bf16) (r : Fin 1024) (n : Fin 768) :
    matmul dot_S1024x3072_S3072x768_S1024x768_1_0_0_1_n_n none l w (constant S1024x768 .f32 0x00000000#32) (ix2 r n)
      = ∑ f : Fin 3072, l (ix2 r f) * w (ix2 f n) := by
  refine (Ideal.matmul_constant_zero_apply dot_S1024x3072_S3072x768_S1024x768_1_0_0_1_n_n none l w (ix2 r n)).trans ?_
  rw [← Equiv.sum_comp (contrEquiv1 dot_S1024x3072_S3072x768_S1024x768_1_0_0_1_n_n 3072 rfl rfl).symm]
  refine Finset.sum_congr rfl fun f _ => ?_
  have hk := contrEquiv1_symm_val dot_S1024x3072_S3072x768_S1024x768_1_0_0_1_n_n 3072 rfl rfl f
  have el : dot_S1024x3072_S3072x768_S1024x768_1_0_0_1_n_n.lhsIdx (ix2 r n) ((contrEquiv1 dot_S1024x3072_S3072x768_S1024x768_1_0_0_1_n_n 3072 rfl rfl).symm f) = ix2 r f :=
    funext fun a => Fin.ext (by
      match a with
      | ⟨0, _⟩ => exact outDot_l0 _ _
      | ⟨1, _⟩ => exact (outDot_l1 _ _).trans hk)
  have er : dot_S1024x3072_S3072x768_S1024x768_1_0_0_1_n_n.rhsIdx (ix2 r n) ((contrEquiv1 dot_S1024x3072_S3072x768_S1024x768_1_0_0_1_n_n 3072 rfl rfl).symm f) = ix2 f n :=
    funext fun a => Fin.ext (by
      match a with
      | ⟨0, _⟩ => exact (outDot_r0 _ _).trans hk
      | ⟨1, _⟩ => exact outDot_r1 _ _)
  rw [el, er]

/-! ## The stored value at an entry -/

/-- The value the body stores, at row `r` and column `e` of the block, is one token's output feature: the
    token's gate inputs are row `r` of the loaded feature columns, the cosines the one loaded row, the first
    weight matrix is read transposed and the second by its column `e`. -/
theorem stored_apply (x : Vec Ideal S1024x8 .f32) (c : Vec Ideal S1x8 .f32) (w1 : Vec Ideal S8x3072 .bf16)
    (w2 : Vec Ideal S3072x768 .bf16) (r : Fin 1024) (e : Fin 768) :
    k0_pay1 (F := Ideal) x c w1 w2 (ix2 r e)
      = Cert.Ffn.tokenOut (fun q => x (ix2 r q)) (fun q => c (ix2 (0 : Fin 1) q)) (fun f q => w1 (ix2 q f))
          (fun f => w2 (ix2 f e)) := by
  unfold k0_pay1 Cert.Ffn.tokenOut
  simp only [shapeCast_self]
  refine (outDot_apply _ _ r e).trans ?_
  refine Finset.sum_congr rfl fun f _ => ?_
  refine congrArg (· * w2 (ix2 f e)) ?_
  show max (matmul dot_S1024x8_S8x3072_S1024x3072_1_0_0_1_n_n none _ w1 (constant S1024x3072 .f32 0x00000000#32) (ix2 r f))
      (Ideal.ofBits .f32 0x00000000#32) = _
  refine congrArg (max · (Ideal.ofBits .f32 0x00000000#32)) ?_
  refine (gateDot_apply _ _ r f).trans ?_
  refine Finset.sum_congr rfl fun q _ => ?_
  refine congrArg (· * w1 (ix2 q f)) ?_
  show Ideal.cos (x (ix2 r q)) * broadcastTo S1024x8 c broadcasts_S1x8_S1024x8 (ix2 r q) = _
  rw [broadcastTo_1b_ab_apply]

end Cert.KernelIdeal.Ffn

end
-- ==== Proof.RegionValue.lean ====
/-
  The array the launched region leaves, as one function of the four arrays it is launched on.

  The grid has 32 points. Point `t` fetches token rows 1024·t … 1024·t + 1023 (all 768 feature columns), and
  the whole of the three small operands — the row of 8 cosines, the first weight matrix transposed (8 × 3072)
  and the second transposed (3072 × 768) — and writes rows 1024·t … 1024·t + 1023 of the result (32768 × 768).
  So what a point writes back is a block of ONE function of the whole arrays: entry (r, e) is the
  specification's `tokenOut` of row `r`'s first 8 features, the cosines, and the two weight matrices read
  transposed. The 32 blocks tile the rows (row `r` is in the block of point `r / 1024`), so after the run the
  array is that function.
-/
import proofs.«113259_j65481071403168_2_alg».proof.Proof.Gen.KernelIdeal.Frame
import proofs.«113259_j65481071403168_2_alg».proof.Proof.BlockValue
import Idealize.ShloMosaic.Lib.Pipeline.Value
import Idealize.ShloMosaic.Lib.Tactic

noncomputable section

namespace Cert.KernelIdeal.Ffn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The region's result from the token rows `X2` (32768 × 768), the row of cosines `C` (1 × 8) and the
    transposed weight matrices `A` (8 × 3072) and `B` (3072 × 768): entry (r, e) is one token's output feature. -/
def rows (X2 : Vec Ideal S32768x768 .f32) (C : Vec Ideal S1x8 .f32) (A : Vec Ideal S8x3072 .bf16)
    (B : Vec Ideal S3072x768 .bf16) : Vec Ideal S32768x768 .f32 :=
  fun j => Cert.Ffn.tokenOut (fun q => X2 (ix2 (j 0) (Cert.Ffn.gateCol q))) (fun q => C (ix2 (0 : Fin 1) q))
    (fun f q => A (ix2 q f)) (fun f => B (ix2 f (j 1)))

/-- The region function at (r, e), with the coordinates written out. -/
theorem rows_ix2 (X2 : Vec Ideal S32768x768 .f32) (C : Vec Ideal S1x8 .f32) (A : Vec Ideal S8x3072 .bf16)
    (B : Vec Ideal S3072x768 .bf16) (r : Fin 32768) (e : Fin 768) :
    rows X2 C A B (ix2 r e)
      = Cert.Ffn.tokenOut (fun q => X2 (ix2 r (Cert.Ffn.gateCol q))) (fun q => C (ix2 (0 : Fin 1) q))
          (fun f q => A (ix2 q f)) (fun f => B (ix2 f e)) := rfl

/-- The body's first load takes columns 0 … 7 of the fetched token block. -/
theorem gateLoad_apply (x0 : Vec Ideal S1024x768 .f32) (r : Fin 1024) (q : Fin 8) :
    View.ld x0 r0_0 (ix2 r q) = x0 (ix2 r (Cert.Ffn.gateCol q)) :=
  congrArg x0 (funext fun a => Fin.ext (by
    match a with
    | ⟨0, _⟩ => show 0 + 1 * r.val = r.val; omega
    | ⟨1, _⟩ => show 0 + 1 * q.val = q.val; omega))

/-- The stored value at a block entry `y` is the region function at the array index `k` under it, once the
    fetched token block `x0` is known to hold the array's rows there (`hX`) and `k` has `y`'s column. -/
theorem stored_rows (X2 : Vec Ideal S32768x768 .f32) (C : Vec Ideal S1x8 .f32) (A : Vec Ideal S8x3072 .bf16)
    (B : Vec Ideal S3072x768 .bf16) (x0 : Vec Ideal S1024x768 .f32) (y : S1024x768.Idx) (k : S32768x768.Idx)
    (hX : ∀ q : Fin 8, x0 (ix2 (y 0) (Cert.Ffn.gateCol q)) = X2 (ix2 (k 0) (Cert.Ffn.gateCol q)))
    (hk1 : (k 1).val = (y 1).val) :
    k0_pay1 (F := Ideal) (View.ld x0 r0_0) C A B y = rows X2 C A B k := by
  obtain ⟨r, e, rfl⟩ : ∃ (r : Fin 1024) (e : Fin 768), y = ix2 r e := ⟨y 0, y 1, eq_ix2 y⟩
  rw [stored_apply]
  unfold rows
  have ha : (fun q : Fin 8 => View.ld x0 r0_0 (ix2 r q)) = fun q => X2 (ix2 (k 0) (Cert.Ffn.gateCol q)) :=
    funext fun q => (gateLoad_apply x0 r q).trans (hX q)
  have hd : (fun f : Fin 3072 => B (ix2 f e)) = fun f => B (ix2 f (k 1)) :=
    funext fun f => congrArg B (funext fun a => Fin.ext (by
      match a with
      | ⟨0, _⟩ => rfl
      | ⟨1, _⟩ => exact hk1.symm))
  rw [ha, hd]

/-- The printed index maps over the grid: the token window and the result window are at block row `t`, the
    three small operands at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The token block fetched at point `t` is rows 1024·t … of the token array. -/
theorem tokenBlk_apply (c : Dev nD) (t : Fin cfg0.N) (y : S1024x768.Idx) (k : S32768x768.Idx)
    (hk0 : (k 0).val = 1024 * t.val + (y 0).val) (hk1 : (k 1).val = (y 1).val) :
    (iblk m c 0 t : Vec Ideal S1024x768 .f32) y = (V m c main_v0 : Vec Ideal S32768x768 .f32) k := by
  obtain ⟨e0, e1, -⟩ := idx_facts t
  unfold iblk
  rw [View.read_apply]
  show V m c main_v0 (((cfg0.win 0).blk t).view.emb y) = V m c main_v0 k
  have h : ((cfg0.win 0).blk t).view.emb y = k := by
    funext a
    apply Fin.ext
    match a with
    | ⟨0, _⟩ => show win0_0.index t (0 : Fin 2) * 1024 + 1 * (y 0).val = (k 0).val; rw [e0, hk0]; omega
    | ⟨1, _⟩ => show win0_0.index t (1 : Fin 2) * 768 + 1 * (y 1).val = (k 1).val; rw [e1, hk1]; omega
  rw [h]

/-- The block of cosines at any point is the whole row. -/
theorem cosBlk_eq (c : Dev nD) (t : Fin cfg0.N) : (iblk m c 1 t : Vec Ideal S1x8 .f32) = V m c main_v2 := by
  obtain ⟨-, -, e0, e1, -⟩ := idx_facts t
  funext y
  unfold iblk
  rw [View.read_apply]
  show V m c main_v2 (((cfg0.win 1).blk t).view.emb y) = V m c main_v2 y
  have h : ((cfg0.win 1).blk t).view.emb y = y := by
    funext a
    apply Fin.ext
    match a with
    | ⟨0, _⟩ => show win0_1.index t (0 : Fin 2) * 1 + 1 * (y 0).val = (y 0).val; rw [e0]; omega
    | ⟨1, _⟩ => show win0_1.index t (1 : Fin 2) * 8 + 1 * (y 1).val = (y 1).val; rw [e1]; omega
  rw [h]

/-- The block of the first weight matrix at any point is the whole matrix. -/
theorem w1Blk_eq (c : Dev nD) (t : Fin cfg0.N) : (iblk m c 2 t : Vec Ideal S8x3072 .bf16) = V m c main_v4 := by
  obtain ⟨-, -, -, -, e0, e1, -⟩ := idx_facts t
  funext y
  unfold iblk
  rw [View.read_apply]
  show V m c main_v4 (((cfg0.win 2).blk t).view.emb y) = V m c main_v4 y
  have h : ((cfg0.win 2).blk t).view.emb y = y := by
    funext a
    apply Fin.ext
    match a with
    | ⟨0, _⟩ => show win0_2.index t (0 : Fin 2) * 8 + 1 * (y 0).val = (y 0).val; rw [e0]; omega
    | ⟨1, _⟩ => show win0_2.index t (1 : Fin 2) * 3072 + 1 * (y 1).val = (y 1).val; rw [e1]; omega
  rw [h]

/-- The block of the second weight matrix at any point is the whole matrix. -/
theorem w2Blk_eq (c : Dev nD) (t : Fin cfg0.N) : (iblk m c 3 t : Vec Ideal S3072x768 .bf16) = V m c main_v6 := by
  obtain ⟨-, -, -, -, -, -, e0, e1, -⟩ := idx_facts t
  funext y
  unfold iblk
  rw [View.read_apply]
  show V m c main_v6 (((cfg0.win 3).blk t).view.emb y) = V m c main_v6 y
  have h : ((cfg0.win 3).blk t).view.emb y = y := by
    funext a
    apply Fin.ext
    match a with
    | ⟨0, _⟩ => show win0_3.index t (0 : Fin 2) * 3072 + 1 * (y 0).val = (y 0).val; rw [e0]; omega
    | ⟨1, _⟩ => show win0_3.index t (1 : Fin 2) * 768 + 1 * (y 1).val = (y 1).val; rw [e1]; omega
  rw [h]

/-- What point `t` writes back is block `t` of the region function of the arrays as the region finds them. -/
theorem flushed_eq (c : Dev nD) (t : Fin cfg0.N) :
    (dats m 0 c).flushed 4 t = ((cfg0.win 4).blk t).view.read (Elt Ideal)
      (rows (V m c main_v0) (V m c main_v2) (V m c main_v4) (V m c main_v6)) := by
  show (cfg0.win 4).cut (grid0.coords t) ((dats m 0 c).after 4 t) = _
  rw [after0_4]
  unfold out0_4
  rw [View.canon_unit_zero zeroOffsets]
  simp only [View.ld_unit_zero (S := S1x8) zeroOffsets, View.ld_unit_zero (S := S8x3072) zeroOffsets,
    View.ld_unit_zero (S := S3072x768) zeroOffsets]
  rw [cosBlk_eq, w1Blk_eq, w2Blk_eq]
  obtain ⟨-, -, -, -, -, -, -, -, e0, e1⟩ := idx_facts t
  funext y
  show k0_pay1 (F := Ideal) (View.ld (iblk m c 0 t) r0_0) (V m c main_v2) (V m c main_v4) (V m c main_v6) y
    = rows (V m c main_v0) (V m c main_v2) (V m c main_v4) (V m c main_v6) (((cfg0.win 4).blk t).view.emb y)
  have hk0 : ((((cfg0.win 4).blk t).view.emb y) 0).val = 1024 * t.val + (y 0).val := by
    show win0_4.index t (0 : Fin 2) * 1024 + 1 * (y 0).val = _; rw [e0]; omega
  have hk1 : ((((cfg0.win 4).blk t).view.emb y) 1).val = (y 1).val := by
    show win0_4.index t (1 : Fin 2) * 768 + 1 * (y 1).val = _; rw [e1]; omega
  exact stored_rows (V m c main_v0) (V m c main_v2) (V m c main_v4) (V m c main_v6) (iblk m c 0 t) y
    (((cfg0.win 4).blk t).view.emb y)
    (fun q => tokenBlk_apply m c t (ix2 (y 0) (Cert.Ffn.gateCol q)) (ix2 ((((cfg0.win 4).blk t).view.emb y) 0) (Cert.Ffn.gateCol q)) hk0 rfl)
    hk1

/-- An index of the result array is in point `t`'s block iff each coordinate is in the block's range. -/
theorem mem_blk (t : Fin cfg0.N) (i : S32768x768.Idx) :
    i ∈ ((cfg0.win 4).blk t).view.set ↔ ∀ a : Fin 2, win0_4.index t a * S1024x768.size a ≤ (i a).val
      ∧ (i a).val < win0_4.index t a * S1024x768.size a + S1024x768.size a := by
  show i ∈ ((View.whole main_v7).slice (win0_4.rect t)).set ↔ _
  rw [View.set_slice_whole, Rect.mem_set_unit]
  exact Iff.rfl

/-- After the run the result array is the region function: row `r` is covered by point `r / 1024`. -/
theorem region_final (c : Dev nD) :
    (dats m 0 c).arrAt 4 cfg0.N = rows (V m c main_v0) (V m c main_v2) (V m c main_v4) (V m c main_v6) :=
  (dats m 0 c).arrAt_eq_of_cover 4 _ (fun t _ => flushed_eq m c t) fun i => by
    have hi0 : (i 0).val < 32768 := (i 0).isLt
    have hi1 : (i 1).val < 768 := (i 1).isLt
    have hN : cfg0.N = 32 := N_0
    have hlt : (i 0).val / 1024 < cfg0.N := by rw [hN]; omega
    obtain ⟨-, -, -, -, -, -, -, -, e0, e1⟩ := idx_facts ⟨(i 0).val / 1024, hlt⟩
    refine ⟨⟨(i 0).val / 1024, hlt⟩, flush0_4 _, ?_⟩
    rw [mem_blk]
    intro a
    match a with
    | ⟨0, _⟩ =>
      show win0_4.index ⟨(i 0).val / 1024, hlt⟩ (0 : Fin 2) * 1024 ≤ (i 0).val
        ∧ (i 0).val < win0_4.index ⟨(i 0).val / 1024, hlt⟩ (0 : Fin 2) * 1024 + 1024
      rw [e0]
      show (i 0).val / 1024 * 1024 ≤ (i 0).val ∧ (i 0).val < (i 0).val / 1024 * 1024 + 1024
      omega
    | ⟨1, _⟩ =>
      show win0_4.index ⟨(i 0).val / 1024, hlt⟩ (1 : Fin 2) * 768 ≤ (i 1).val
        ∧ (i 1).val < win0_4.index ⟨(i 0).val / 1024, hlt⟩ (1 : Fin 2) * 768 + 768
      rw [e1]
      omega

end Cert.KernelIdeal.Ffn

end
-- ==== Proof.KernelResult.lean ====
/-
  The kernel program's result is the specification.

  Around the launched region the program does layout work only. Before it: the inputs (8 × 4096 × 768) are
  reshaped to token rows (32768 × 768), token (b, s) becoming row 4096·b + s; the cosines of the 8 angles are
  taken and reshaped to one row; each weight matrix is transposed (and its change of float format is the
  identity on the extended reals). After it: the region's array (32768 × 768) is reshaped back to
  8 × 4096 × 768. Reading the region's array (the region function of the previous module) through these
  layout operations, entry (b, s, e) of the result is the specification's `tokenOut` of token (b, s)'s first
  8 features, the cosines of the angles, the first weight matrix and row `e` of the second.
-/
import proofs.«113259_j65481071403168_2_alg».proof.Proof.RegionValue
import Idealize.ShloMosaic.Lib.StableHlo.Run

noncomputable section

namespace Cert.KernelIdeal.Ffn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The layout operations, read through -/

/-- Token (b, s) is row 4096·b + s of the token rows. -/
def tokenRow (b : Fin 8) (s : Fin 4096) : Fin 32768 := ⟨b.val * 4096 + s.val, by omega⟩

/-- The region function of the reshaped inputs, the row of cosines and the transposed weight matrices,
    reshaped back, is the specification of the arguments. -/
theorem rows_reshaped (X : Vec Ideal S8x4096x768 .f32) (θ : Vec Ideal S8 .f32) (W1 : Vec Ideal S3072x8 .f32)
    (W2 : Vec Ideal S768x3072 .f32) :
    shapeCast S8x4096x768
        (rows (shapeCast S32768x768 X shapeCasts_S8x4096x768_S32768x768)
          (shapeCast S1x8 (Host.cos (F := Ideal) (φ := .f32) θ) shapeCasts_S8_S1x8)
          (truncf (F := Ideal) .bf16 (transpose S8x3072 [1, 0] W1 transposes_S3072x8_S8x3072_1_0) bitsLt_bf16_f32)
          (truncf (F := Ideal) .bf16 (transpose S3072x768 [1, 0] W2 transposes_S768x3072_S3072x768_1_0) bitsLt_bf16_f32))
        shapeCasts_S32768x768_S8x4096x768
      = Cert.Ffn.ffn X θ W1 W2 := by
  funext i
  obtain ⟨b, s, e, rfl⟩ : ∃ (b : Fin 8) (s : Fin 4096) (e : Fin 768), i = ix3 b s e := ⟨i 0, i 1, i 2, eq_ix3 i⟩
  refine (shapeCast_apply _ shapeCasts_S32768x768_S8x4096x768 (ix3 b s e) (ix2 (tokenRow b s) e) ?_).trans ?_
  · rw [Shape.rowMajor_val_two, Shape.rowMajor_val_three]; rfl
  rw [rows_ix2, Cert.Ffn.ffn_ix3]
  -- the token's feature column q, through the reshape to rows
  have hX : ∀ q : Fin 8, shapeCast S32768x768 X shapeCasts_S8x4096x768_S32768x768 (ix2 (tokenRow b s) (Cert.Ffn.gateCol q))
      = X (ix3 b s (Cert.Ffn.gateCol q)) := fun q =>
    shapeCast_apply X shapeCasts_S8x4096x768_S32768x768 _ _ (by
      rw [Shape.rowMajor_val_two, Shape.rowMajor_val_three]; rfl)
  -- the cosine of angle q, through the reshape to one row
  have hC : ∀ q : Fin 8, shapeCast S1x8 (Host.cos (F := Ideal) (φ := .f32) θ) shapeCasts_S8_S1x8 (ix2 (0 : Fin 1) q) = Ideal.cos (θ (ix1 q)) := fun q =>
    shapeCast_a_1a_apply (Host.cos (F := Ideal) (φ := .f32) θ) shapeCasts_S8_S1x8 0 q
  -- the weight matrices, through their transposes
  have hA : ∀ (f : Fin 3072) (q : Fin 8),
      (truncf (F := Ideal) .bf16 (transpose S8x3072 [1, 0] W1 transposes_S3072x8_S8x3072_1_0) bitsLt_bf16_f32 : Vec Ideal S8x3072 .bf16) (ix2 q f)
        = W1 (ix2 f q) := fun f q => transpose_ix2_apply W1 transposes_S3072x8_S8x3072_1_0 q f
  have hB : ∀ f : Fin 3072,
      (truncf (F := Ideal) .bf16 (transpose S3072x768 [1, 0] W2 transposes_S768x3072_S3072x768_1_0) bitsLt_bf16_f32 : Vec Ideal S3072x768 .bf16) (ix2 f e)
        = W2 (ix2 e f) := fun f => transpose_ix2_apply W2 transposes_S768x3072_S3072x768_1_0 f e
  simp only [hX, hC, hA, hB]

/-! ## The arrays the region is launched on -/

/-- The token rows: the inputs reshaped. -/
theorem V_tokens (c : Dev nD) : (V m c main_v0 : Vec Ideal S32768x768 .f32)
    = shapeCast S32768x768 ((m ((c.tc : Thread nD τ).loc main_arg0)) : Vec Ideal S8x4096x768 .f32) shapeCasts_S8x4096x768_S32768x768 := by
  show StableHlo.after hostOps0 (fun b => m (c, b)) (Proc.devRef .tc main_v0) = _
  after_results <;> rfl

/-- The row of cosines of the angles. -/
theorem V_cos (c : Dev nD) : (V m c main_v2 : Vec Ideal S1x8 .f32)
    = shapeCast S1x8 (Host.cos (F := Ideal) (φ := .f32) ((m ((c.tc : Thread nD τ).loc main_arg1)) : Vec Ideal S8 .f32)) shapeCasts_S8_S1x8 := by
  show StableHlo.after hostOps0 (fun b => m (c, b)) (Proc.devRef .tc main_v2) = _
  after_results <;> rfl

/-- The first weight matrix transposed. -/
theorem V_w1 (c : Dev nD) : (V m c main_v4 : Vec Ideal S8x3072 .bf16)
    = truncf (F := Ideal) .bf16 (transpose S8x3072 [1, 0] ((m ((c.tc : Thread nD τ).loc main_arg2)) : Vec Ideal S3072x8 .f32) transposes_S3072x8_S8x3072_1_0) bitsLt_bf16_f32 := by
  show StableHlo.after hostOps0 (fun b => m (c, b)) (Proc.devRef .tc main_v4) = _
  after_results <;> rfl

/-- The second weight matrix transposed. -/
theorem V_w2 (c : Dev nD) : (V m c main_v6 : Vec Ideal S3072x768 .bf16)
    = truncf (F := Ideal) .bf16 (transpose S3072x768 [1, 0] ((m ((c.tc : Thread nD τ).loc main_arg3)) : Vec Ideal S768x3072 .f32) transposes_S768x3072_S3072x768_1_0) bitsLt_bf16_f32 := by
  show StableHlo.after hostOps0 (fun b => m (c, b)) (Proc.devRef .tc main_v6) = _
  after_results <;> rfl

/-! ## The result -/

/-- The program's result buffer after the closing reshape is the specification of the argument arrays. -/
theorem result_eq (c : Dev nD) :
    Pipeline.afterTail₀ cfgs (dats m) 0 (V0 m) [hostOps1] c main_v8
      = Cert.Ffn.ffn (m ((c.tc : Thread nD τ).loc main_arg0)) (m ((c.tc : Thread nD τ).loc main_arg1)) (m ((c.tc : Thread nD τ).loc main_arg2)) (m ((c.tc : Thread nD τ).loc main_arg3)) := by
  have e : Pipeline.withArrays spec0 c (V0 m c) (fun w => (dats m 0 c).arrAt w cfg0.N) (Proc.devRef .tc main_v7)
      = rows (V m c main_v0) (V m c main_v2) (V m c main_v4) (V m c main_v6) :=
    (Pipeline.withArrays_arr spec0 launch0.win.arr_inj c _ _ 4).trans (region_final m c)
  unfold Pipeline.afterTail₀
  show StableHlo.after hostOps1 _ (Proc.devRef .tc main_v8) = _
  after_results
  show shapeCast S8x4096x768
      (Pipeline.withArrays spec0 c (V0 m c) (fun w => (dats m 0 c).arrAt w cfg0.N) (Proc.devRef .tc main_v7))
      shapeCasts_S32768x768_S8x4096x768 = _
  rw [e, V_tokens, V_cos, V_w1, V_w2]
  exact rows_reshaped _ _ _ _

/-- The run of the kernel program, read: the result buffer ends at the specification of the argument arrays,
    and the argument arrays end as they were. -/
theorem run : θ_run defs (onTc (τ := τ) (main (F := Ideal))) ⟨m, fun _ => 0, ρ⟩ fun r => ∀ c : Dev nD,
      r.2.mem ((c.tc : Thread nD τ).loc main_v8)
        = Cert.Ffn.ffn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Ffn

end
-- ==== Proof.RefIsSpec.lean ====
/-
  The reference computes the specification.

  Read one operation at a time, the reference slices the first 8 features of every token, takes cosines of
  them and of the angles, multiplies, contracts with the first weight matrix over the 8 gate coordinates,
  cuts off below at zero, and contracts with the second weight matrix over the 3072 hidden coordinates. At an
  index (b, s, e) that is the specification's `tokenOut` of token (b, s)'s first 8 features, the cosines of
  the angles, the first weight matrix and row `e` of the second: the only work is to say which entry of
  which argument each composed index function names.
-/
import proofs.«113259_j65481071403168_2_alg».proof.Proof.Gen.ReferenceIdeal.Read
import proofs.«113259_j65481071403168_2_alg».proof.Proof.FfnSpec

noncomputable section

namespace Cert.ReferenceIdeal.Ffn

open Idealize.ShloMosaic Idealize.ShloMosaic.ValueIdx Cert.ReferenceIdeal Cert.ReferenceIdeal.Read

/-- The reference's last stage is the specification, index by index. -/
theorem ref_eq (x0 : (⟨S8x4096x768, .f32⟩ : BufTy).Contents (Elt Ideal)) (x1 : (⟨S8, .f32⟩ : BufTy).Contents (Elt Ideal))
    (x2 : (⟨S3072x8, .f32⟩ : BufTy).Contents (Elt Ideal)) (x3 : (⟨S768x3072, .f32⟩ : BufTy).Contents (Elt Ideal)) :
    val_main_v8 (F := Ideal) x0 x1 x2 x3 = Cert.Ffn.ffn x0 x1 x2 x3 := by
  funext i
  rw [val_main_v8_apply]
  unfold Cert.Ffn.ffn Cert.Ffn.tokenOut
  refine Finset.sum_congr rfl fun f _ => ?_
  rw [val_main_v7_apply, val_main_v6_apply, val_main_call0_v0_apply, val_main_call0_cst_apply]
  simp only [val_main_v5_apply, val_main_v1_apply, val_main_v0_apply, val_main_v4_apply, val_main_v3_apply, val_main_v2_apply,
    Ideal.mulf_def, Ideal.hostUnary_cos_def, Ideal.maximumf_def, Ideal.ofBits_def]
  -- the gate input: feature column q of token (b, s)
  have eX : ∀ k : Fin 8, idx_main_v0 (lidx_main_v6 (lidx_main_v8 i f) k) = ix3 (i 0) (i 1) (Cert.Ffn.gateCol k) :=
    fun k => funext fun a => Fin.ext (by match a with | ⟨0, _⟩ => rfl | ⟨1, _⟩ => rfl | ⟨2, _⟩ => rfl)
  -- the angle: coordinate q
  have eθ : ∀ k : Fin 8, idx_main_v3 (idx_main_v4 (lidx_main_v6 (lidx_main_v8 i f) k)) = ix1 k :=
    fun k => funext fun a => Fin.ext (by match a with | ⟨0, _⟩ => rfl)
  -- the first weight matrix: entry (f, q)
  have eW1 : ∀ k : Fin 8, ridx_main_v6 (lidx_main_v8 i f) k = ix2 f k :=
    fun k => funext fun a => Fin.ext (by match a with | ⟨0, _⟩ => rfl | ⟨1, _⟩ => rfl)
  -- the second weight matrix: entry (e, f)
  have eW2 : ridx_main_v8 i f = ix2 (i 2) f :=
    funext fun a => Fin.ext (by match a with | ⟨0, _⟩ => rfl | ⟨1, _⟩ => rfl)
  simp only [eX, eθ, eW1, eW2]
  rfl

end Cert.ReferenceIdeal.Ffn

end
-- ==== Proof.lean ====
/-
  The five claims of this certificate.

  Both programs compute, for every token (b, s) and output feature e,
      Σ_f max(Σ_q cos(x[b, s, q]) · cos(θ[q]) · W1[f, q], 0) · W2[e, f]
  over the first 8 features q of the token and the 3072 hidden coordinates f. The kernel program reshapes the
  tokens to 32768 rows, hands blocks of 1024 rows to a body that forms the 8 gate values of each row, multiplies
  by the transposed first weight matrix, cuts off below at zero and multiplies by the transposed second one, and
  reshapes back; the reference states the same contractions directly on the three-axis arrays. On the extended
  reals a change of float format is the identity and a product of matrices is the plain sum over the contracted
  coordinate, so the two results are the same sums of the same products, term by term: no rearrangement of
  a sum or product is needed, and the finiteness of the inputs is never used. Both results are stated as ONE
  function `Cert.Ffn.ffn` of the argument arrays (Proof/FfnSpec.lean); Proof/KernelResult.lean shows the kernel
  program ends there (over Proof/BlockValue.lean, the stored block entry, and Proof/RegionValue.lean, the
  region's array), Proof/RefIsSpec.lean that the reference does.

  The three frame claims: the two kernel programs' by the generated frame proofs, the reference's by its generated
  run with the result dropped. The idealization rewrote nothing, so `preserves` is trivially true.
-/
import proofs.«113259_j65481071403168_2_alg».proof.Defs
import proofs.«113259_j65481071403168_2_alg».proof.Proof.Gen.Kernel
import proofs.«113259_j65481071403168_2_alg».proof.Proof.Gen.Kernel.Skeleton
import proofs.«113259_j65481071403168_2_alg».proof.Proof.Gen.Kernel.Launch
import proofs.«113259_j65481071403168_2_alg».proof.Proof.Gen.Kernel.Points
import proofs.«113259_j65481071403168_2_alg».proof.Proof.Gen.Kernel.Frame
import proofs.«113259_j65481071403168_2_alg».proof.Proof.Gen.KernelIdeal
import proofs.«113259_j65481071403168_2_alg».proof.Proof.Gen.KernelIdeal.Skeleton
import proofs.«113259_j65481071403168_2_alg».proof.Proof.Gen.KernelIdeal.Launch
import proofs.«113259_j65481071403168_2_alg».proof.Proof.Gen.KernelIdeal.Points
import proofs.«113259_j65481071403168_2_alg».proof.Proof.Gen.KernelIdeal.Frame
import proofs.«113259_j65481071403168_2_alg».proof.Proof.Gen.ReferenceIdeal
import proofs.«113259_j65481071403168_2_alg».proof.Proof.Gen.Pre_finite_inputs
import proofs.«113259_j65481071403168_2_alg».proof.Proof.Gen.ReferenceIdeal.Run
import proofs.«113259_j65481071403168_2_alg».proof.Proof.Gen.ReferenceIdeal.Read
import proofs.«113259_j65481071403168_2_alg».proof.Proof.KernelResult
import proofs.«113259_j65481071403168_2_alg».proof.Proof.RefIsSpec
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: nothing was rewritten. -/
theorem preserves : Cert.preserves_Kernel_KernelIdeal := trivial

/-- From memories that agree on the four arguments, the kernel program's result and the reference's are both
    the specification `Cert.Ffn.ffn` of those arguments. -/
theorem algebraic : Cert.algebraic_KernelIdeal_ReferenceIdeal := by
  intro m ρ m' ρ' _ hagree
  refine ⟨_, Cert.KernelIdeal.Ffn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Ffn.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
